-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x512 .f32) (main_arg1 : FVec F S1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x512 : Shape := ⟨2, ![512, 512]⟩
abbrev S1024x512 : Shape := ⟨2, ![1024, 512]⟩
abbrev S512x1024 : Shape := ⟨2, ![512, 1024]⟩
abbrev S128x512 : Shape := ⟨2, ![128, 512]⟩
abbrev S512x256 : Shape := ⟨2, ![512, 256]⟩
abbrev S128x256 : Shape := ⟨2, ![128, 256]⟩
abbrev S128x128 : Shape := ⟨2, ![128, 128]⟩
abbrev S128x1 : Shape := ⟨2, ![128, 1]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .hbm, ⟨3, _⟩ => ⟨S512x1024, .f32⟩
  | .local _ .vmem, ⟨0, _⟩ => ⟨S128x512, .f32⟩
  | .local _ .vmem, ⟨1, _⟩ => ⟨S128x512, .f32⟩
  | .local _ .vmem, ⟨2, _⟩ => ⟨S512x256, .f32⟩
  | .local _ .vmem, ⟨3, _⟩ => ⟨S512x256, .f32⟩
  | .local _ .vmem, ⟨4, _⟩ => ⟨S128x256, .f32⟩
  | .local _ .vmem, ⟨5, _⟩ => ⟨S128x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k0_off2 (c0_i32 : BitVec 32) : Fin 2 → Nat :=
  let c128_i32 : BitVec 32 := 128#32
  let v1 : BitVec 32 := Scalar.muli c0_i32 c128_i32
  let v2 : BitVec 32 := v1
  let v5 : Index := Scalar.indexCast v2
  let c0_0 : Index := 0#32
  ![v5.toNat, 0]
def k0_mult2 : BitVec 32 :=
  let c1_i32 : BitVec 32 := 1#32
  let c128_i32_1 : BitVec 32 := 128#32
  let v776 : BitVec 32 := Scalar.muli c1_i32 c128_i32_1
  v776
def k0_mult3 : BitVec 32 :=
  let c2_i32 : BitVec 32 := 2#32
  let c128_i32_4 : BitVec 32 := 128#32
  let v1551 : BitVec 32 := Scalar.muli c2_i32 c128_i32_4
  v1551
def k0_mult4 : BitVec 32 :=
  let c3_i32 : BitVec 32 := 3#32
  let c128_i32_7 : BitVec 32 := 128#32
  let v2326 : BitVec 32 := Scalar.muli c3_i32 c128_i32_7
  v2326
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S1024x512_S512x1024_1_0 : S1024x512.Transposes [1, 0] S512x1024
  h_S128x128 : 0 < S128x128.numel
  h_S128x256 : 0 < S128x256.numel
  shapeCasts_S128x256_S128x256 : S128x256.ShapeCasts S128x256
  slices_S128x128_o0_0_S128x1 : S128x128.Slices ![0, 0] S128x1
  slices_S128x256_o0_0_S1x256 : S128x256.Slices ![0, 0] S1x256
  broadcasts_S128x1_S128x256 : S128x1.Broadcasts S128x256
  broadcasts_S1x256_S128x256 : S1x256.Broadcasts S128x256
  slices_S128x128_o0_1_S128x1 : S128x128.Slices ![0, 1] S128x1
  slices_S128x256_o1_0_S1x256 : S128x256.Slices ![1, 0] S1x256
  slices_S128x128_o0_2_S128x1 : S128x128.Slices ![0, 2] S128x1
  slices_S128x256_o2_0_S1x256 : S128x256.Slices ![2, 0] S1x256
  slices_S128x128_o0_3_S128x1 : S128x128.Slices ![0, 3] S128x1
  slices_S128x256_o3_0_S1x256 : S128x256.Slices ![3, 0] S1x256
  slices_S128x128_o0_4_S128x1 : S128x128.Slices ![0, 4] S128x1
  slices_S128x256_o4_0_S1x256 : S128x256.Slices ![4, 0] S1x256
  slices_S128x128_o0_5_S128x1 : S128x128.Slices ![0, 5] S128x1
  slices_S128x256_o5_0_S1x256 : S128x256.Slices ![5, 0] S1x256
  slices_S128x128_o0_6_S128x1 : S128x128.Slices ![0, 6] S128x1
  slices_S128x256_o6_0_S1x256 : S128x256.Slices ![6, 0] S1x256
  slices_S128x128_o0_7_S128x1 : S128x128.Slices ![0, 7] S128x1
  slices_S128x256_o7_0_S1x256 : S128x256.Slices ![7, 0] S1x256
  slices_S128x128_o0_8_S128x1 : S128x128.Slices ![0, 8] S128x1
  slices_S128x256_o8_0_S1x256 : S128x256.Slices ![8, 0] S1x256
  slices_S128x128_o0_9_S128x1 : S128x128.Slices ![0, 9] S128x1
  slices_S128x256_o9_0_S1x256 : S128x256.Slices ![9, 0] S1x256
  slices_S128x128_o0_10_S128x1 : S128x128.Slices ![0, 10] S128x1
  slices_S128x256_o10_0_S1x256 : S128x256.Slices ![10, 0] S1x256
  slices_S128x128_o0_11_S128x1 : S128x128.Slices ![0, 11] S128x1
  slices_S128x256_o11_0_S1x256 : S128x256.Slices ![11, 0] S1x256
  slices_S128x128_o0_12_S128x1 : S128x128.Slices ![0, 12] S128x1
  slices_S128x256_o12_0_S1x256 : S128x256.Slices ![12, 0] S1x256
  slices_S128x128_o0_13_S128x1 : S128x128.Slices ![0, 13] S128x1
  slices_S128x256_o13_0_S1x256 : S128x256.Slices ![13, 0] S1x256
  slices_S128x128_o0_14_S128x1 : S128x128.Slices ![0, 14] S128x1
  slices_S128x256_o14_0_S1x256 : S128x256.Slices ![14, 0] S1x256
  slices_S128x128_o0_15_S128x1 : S128x128.Slices ![0, 15] S128x1
  slices_S128x256_o15_0_S1x256 : S128x256.Slices ![15, 0] S1x256
  slices_S128x128_o0_16_S128x1 : S128x128.Slices ![0, 16] S128x1
  slices_S128x256_o16_0_S1x256 : S128x256.Slices ![16, 0] S1x256
  slices_S128x128_o0_17_S128x1 : S128x128.Slices ![0, 17] S128x1
  slices_S128x256_o17_0_S1x256 : S128x256.Slices ![17, 0] S1x256
  slices_S128x128_o0_18_S128x1 : S128x128.Slices ![0, 18] S128x1
  slices_S128x256_o18_0_S1x256 : S128x256.Slices ![18, 0] S1x256
  slices_S128x128_o0_19_S128x1 : S128x128.Slices ![0, 19] S128x1
  slices_S128x256_o19_0_S1x256 : S128x256.Slices ![19, 0] S1x256
  slices_S128x128_o0_20_S128x1 : S128x128.Slices ![0, 20] S128x1
  slices_S128x256_o20_0_S1x256 : S128x256.Slices ![20, 0] S1x256
  slices_S128x128_o0_21_S128x1 : S128x128.Slices ![0, 21] S128x1
  slices_S128x256_o21_0_S1x256 : S128x256.Slices ![21, 0] S1x256
  slices_S128x128_o0_22_S128x1 : S128x128.Slices ![0, 22] S128x1
  slices_S128x256_o22_0_S1x256 : S128x256.Slices ![22, 0] S1x256
  slices_S128x128_o0_23_S128x1 : S128x128.Slices ![0, 23] S128x1
  slices_S128x256_o23_0_S1x256 : S128x256.Slices ![23, 0] S1x256
  slices_S128x128_o0_24_S128x1 : S128x128.Slices ![0, 24] S128x1
  slices_S128x256_o24_0_S1x256 : S128x256.Slices ![24, 0] S1x256
  slices_S128x128_o0_25_S128x1 : S128x128.Slices ![0, 25] S128x1
  slices_S128x256_o25_0_S1x256 : S128x256.Slices ![25, 0] S1x256
  slices_S128x128_o0_26_S128x1 : S128x128.Slices ![0, 26] S128x1
  slices_S128x256_o26_0_S1x256 : S128x256.Slices ![26, 0] S1x256
  slices_S128x128_o0_27_S128x1 : S128x128.Slices ![0, 27] S128x1
  slices_S128x256_o27_0_S1x256 : S128x256.Slices ![27, 0] S1x256
  slices_S128x128_o0_28_S128x1 : S128x128.Slices ![0, 28] S128x1
  slices_S128x256_o28_0_S1x256 : S128x256.Slices ![28, 0] S1x256
  slices_S128x128_o0_29_S128x1 : S128x128.Slices ![0, 29] S128x1
  slices_S128x256_o29_0_S1x256 : S128x256.Slices ![29, 0] S1x256
  slices_S128x128_o0_30_S128x1 : S128x128.Slices ![0, 30] S128x1
  slices_S128x256_o30_0_S1x256 : S128x256.Slices ![30, 0] S1x256
  slices_S128x128_o0_31_S128x1 : S128x128.Slices ![0, 31] S128x1
  slices_S128x256_o31_0_S1x256 : S128x256.Slices ![31, 0] S1x256
  slices_S128x128_o0_32_S128x1 : S128x128.Slices ![0, 32] S128x1
  slices_S128x256_o32_0_S1x256 : S128x256.Slices ![32, 0] S1x256
  slices_S128x128_o0_33_S128x1 : S128x128.Slices ![0, 33] S128x1
  slices_S128x256_o33_0_S1x256 : S128x256.Slices ![33, 0] S1x256
  slices_S128x128_o0_34_S128x1 : S128x128.Slices ![0, 34] S128x1
  slices_S128x256_o34_0_S1x256 : S128x256.Slices ![34, 0] S1x256
  slices_S128x128_o0_35_S128x1 : S128x128.Slices ![0, 35] S128x1
  slices_S128x256_o35_0_S1x256 : S128x256.Slices ![35, 0] S1x256
  slices_S128x128_o0_36_S128x1 : S128x128.Slices ![0, 36] S128x1
  slices_S128x256_o36_0_S1x256 : S128x256.Slices ![36, 0] S1x256
  slices_S128x128_o0_37_S128x1 : S128x128.Slices ![0, 37] S128x1
  slices_S128x256_o37_0_S1x256 : S128x256.Slices ![37, 0] S1x256
  slices_S128x128_o0_38_S128x1 : S128x128.Slices ![0, 38] S128x1
  slices_S128x256_o38_0_S1x256 : S128x256.Slices ![38, 0] S1x256
  slices_S128x128_o0_39_S128x1 : S128x128.Slices ![0, 39] S128x1
  slices_S128x256_o39_0_S1x256 : S128x256.Slices ![39, 0] S1x256
  slices_S128x128_o0_40_S128x1 : S128x128.Slices ![0, 40] S128x1
  slices_S128x256_o40_0_S1x256 : S128x256.Slices ![40, 0] S1x256
  slices_S128x128_o0_41_S128x1 : S128x128.Slices ![0, 41] S128x1
  slices_S128x256_o41_0_S1x256 : S128x256.Slices ![41, 0] S1x256
  slices_S128x128_o0_42_S128x1 : S128x128.Slices ![0, 42] S128x1
  slices_S128x256_o42_0_S1x256 : S128x256.Slices ![42, 0] S1x256
  slices_S128x128_o0_43_S128x1 : S128x128.Slices ![0, 43] S128x1
  slices_S128x256_o43_0_S1x256 : S128x256.Slices ![43, 0] S1x256
  slices_S128x128_o0_44_S128x1 : S128x128.Slices ![0, 44] S128x1
  slices_S128x256_o44_0_S1x256 : S128x256.Slices ![44, 0] S1x256
  slices_S128x128_o0_45_S128x1 : S128x128.Slices ![0, 45] S128x1
  slices_S128x256_o45_0_S1x256 : S128x256.Slices ![45, 0] S1x256
  slices_S128x128_o0_46_S128x1 : S128x128.Slices ![0, 46] S128x1
  slices_S128x256_o46_0_S1x256 : S128x256.Slices ![46, 0] S1x256
  slices_S128x128_o0_47_S128x1 : S128x128.Slices ![0, 47] S128x1
  slices_S128x256_o47_0_S1x256 : S128x256.Slices ![47, 0] S1x256
  slices_S128x128_o0_48_S128x1 : S128x128.Slices ![0, 48] S128x1
  slices_S128x256_o48_0_S1x256 : S128x256.Slices ![48, 0] S1x256
  slices_S128x128_o0_49_S128x1 : S128x128.Slices ![0, 49] S128x1
  slices_S128x256_o49_0_S1x256 : S128x256.Slices ![49, 0] S1x256
  slices_S128x128_o0_50_S128x1 : S128x128.Slices ![0, 50] S128x1
  slices_S128x256_o50_0_S1x256 : S128x256.Slices ![50, 0] S1x256
  slices_S128x128_o0_51_S128x1 : S128x128.Slices ![0, 51] S128x1
  slices_S128x256_o51_0_S1x256 : S128x256.Slices ![51, 0] S1x256
  slices_S128x128_o0_52_S128x1 : S128x128.Slices ![0, 52] S128x1
  slices_S128x256_o52_0_S1x256 : S128x256.Slices ![52, 0] S1x256
  slices_S128x128_o0_53_S128x1 : S128x128.Slices ![0, 53] S128x1
  slices_S128x256_o53_0_S1x256 : S128x256.Slices ![53, 0] S1x256
  slices_S128x128_o0_54_S128x1 : S128x128.Slices ![0, 54] S128x1
  slices_S128x256_o54_0_S1x256 : S128x256.Slices ![54, 0] S1x256
  slices_S128x128_o0_55_S128x1 : S128x128.Slices ![0, 55] S128x1
  slices_S128x256_o55_0_S1x256 : S128x256.Slices ![55, 0] S1x256
  slices_S128x128_o0_56_S128x1 : S128x128.Slices ![0, 56] S128x1
  slices_S128x256_o56_0_S1x256 : S128x256.Slices ![56, 0] S1x256
  slices_S128x128_o0_57_S128x1 : S128x128.Slices ![0, 57] S128x1
  slices_S128x256_o57_0_S1x256 : S128x256.Slices ![57, 0] S1x256
  slices_S128x128_o0_58_S128x1 : S128x128.Slices ![0, 58] S128x1
  slices_S128x256_o58_0_S1x256 : S128x256.Slices ![58, 0] S1x256
  slices_S128x128_o0_59_S128x1 : S128x128.Slices ![0, 59] S128x1
  slices_S128x256_o59_0_S1x256 : S128x256.Slices ![59, 0] S1x256
  slices_S128x128_o0_60_S128x1 : S128x128.Slices ![0, 60] S128x1
  slices_S128x256_o60_0_S1x256 : S128x256.Slices ![60, 0] S1x256
  slices_S128x128_o0_61_S128x1 : S128x128.Slices ![0, 61] S128x1
  slices_S128x256_o61_0_S1x256 : S128x256.Slices ![61, 0] S1x256
  slices_S128x128_o0_62_S128x1 : S128x128.Slices ![0, 62] S128x1
  slices_S128x256_o62_0_S1x256 : S128x256.Slices ![62, 0] S1x256
  slices_S128x128_o0_63_S128x1 : S128x128.Slices ![0, 63] S128x1
  slices_S128x256_o63_0_S1x256 : S128x256.Slices ![63, 0] S1x256
  slices_S128x128_o0_64_S128x1 : S128x128.Slices ![0, 64] S128x1
  slices_S128x256_o64_0_S1x256 : S128x256.Slices ![64, 0] S1x256
  slices_S128x128_o0_65_S128x1 : S128x128.Slices ![0, 65] S128x1
  slices_S128x256_o65_0_S1x256 : S128x256.Slices ![65, 0] S1x256
  slices_S128x128_o0_66_S128x1 : S128x128.Slices ![0, 66] S128x1
  slices_S128x256_o66_0_S1x256 : S128x256.Slices ![66, 0] S1x256
  slices_S128x128_o0_67_S128x1 : S128x128.Slices ![0, 67] S128x1
  slices_S128x256_o67_0_S1x256 : S128x256.Slices ![67, 0] S1x256
  slices_S128x128_o0_68_S128x1 : S128x128.Slices ![0, 68] S128x1
  slices_S128x256_o68_0_S1x256 : S128x256.Slices ![68, 0] S1x256
  slices_S128x128_o0_69_S128x1 : S128x128.Slices ![0, 69] S128x1
  slices_S128x256_o69_0_S1x256 : S128x256.Slices ![69, 0] S1x256
  slices_S128x128_o0_70_S128x1 : S128x128.Slices ![0, 70] S128x1
  slices_S128x256_o70_0_S1x256 : S128x256.Slices ![70, 0] S1x256
  slices_S128x128_o0_71_S128x1 : S128x128.Slices ![0, 71] S128x1
  slices_S128x256_o71_0_S1x256 : S128x256.Slices ![71, 0] S1x256
  slices_S128x128_o0_72_S128x1 : S128x128.Slices ![0, 72] S128x1
  slices_S128x256_o72_0_S1x256 : S128x256.Slices ![72, 0] S1x256
  slices_S128x128_o0_73_S128x1 : S128x128.Slices ![0, 73] S128x1
  slices_S128x256_o73_0_S1x256 : S128x256.Slices ![73, 0] S1x256
  slices_S128x128_o0_74_S128x1 : S128x128.Slices ![0, 74] S128x1
  slices_S128x256_o74_0_S1x256 : S128x256.Slices ![74, 0] S1x256
  slices_S128x128_o0_75_S128x1 : S128x128.Slices ![0, 75] S128x1
  slices_S128x256_o75_0_S1x256 : S128x256.Slices ![75, 0] S1x256
  slices_S128x128_o0_76_S128x1 : S128x128.Slices ![0, 76] S128x1
  slices_S128x256_o76_0_S1x256 : S128x256.Slices ![76, 0] S1x256
  slices_S128x128_o0_77_S128x1 : S128x128.Slices ![0, 77] S128x1
  slices_S128x256_o77_0_S1x256 : S128x256.Slices ![77, 0] S1x256
  slices_S128x128_o0_78_S128x1 : S128x128.Slices ![0, 78] S128x1
  slices_S128x256_o78_0_S1x256 : S128x256.Slices ![78, 0] S1x256
  slices_S128x128_o0_79_S128x1 : S128x128.Slices ![0, 79] S128x1
  slices_S128x256_o79_0_S1x256 : S128x256.Slices ![79, 0] S1x256
  slices_S128x128_o0_80_S128x1 : S128x128.Slices ![0, 80] S128x1
  slices_S128x256_o80_0_S1x256 : S128x256.Slices ![80, 0] S1x256
  slices_S128x128_o0_81_S128x1 : S128x128.Slices ![0, 81] S128x1
  slices_S128x256_o81_0_S1x256 : S128x256.Slices ![81, 0] S1x256
  slices_S128x128_o0_82_S128x1 : S128x128.Slices ![0, 82] S128x1
  slices_S128x256_o82_0_S1x256 : S128x256.Slices ![82, 0] S1x256
  slices_S128x128_o0_83_S128x1 : S128x128.Slices ![0, 83] S128x1
  slices_S128x256_o83_0_S1x256 : S128x256.Slices ![83, 0] S1x256
  slices_S128x128_o0_84_S128x1 : S128x128.Slices ![0, 84] S128x1
  slices_S128x256_o84_0_S1x256 : S128x256.Slices ![84, 0] S1x256
  slices_S128x128_o0_85_S128x1 : S128x128.Slices ![0, 85] S128x1
  slices_S128x256_o85_0_S1x256 : S128x256.Slices ![85, 0] S1x256
  slices_S128x128_o0_86_S128x1 : S128x128.Slices ![0, 86] S128x1
  slices_S128x256_o86_0_S1x256 : S128x256.Slices ![86, 0] S1x256
  slices_S128x128_o0_87_S128x1 : S128x128.Slices ![0, 87] S128x1
  slices_S128x256_o87_0_S1x256 : S128x256.Slices ![87, 0] S1x256
  slices_S128x128_o0_88_S128x1 : S128x128.Slices ![0, 88] S128x1
  slices_S128x256_o88_0_S1x256 : S128x256.Slices ![88, 0] S1x256
  slices_S128x128_o0_89_S128x1 : S128x128.Slices ![0, 89] S128x1
  slices_S128x256_o89_0_S1x256 : S128x256.Slices ![89, 0] S1x256
  slices_S128x128_o0_90_S128x1 : S128x128.Slices ![0, 90] S128x1
  slices_S128x256_o90_0_S1x256 : S128x256.Slices ![90, 0] S1x256
  slices_S128x128_o0_91_S128x1 : S128x128.Slices ![0, 91] S128x1
  slices_S128x256_o91_0_S1x256 : S128x256.Slices ![91, 0] S1x256
  slices_S128x128_o0_92_S128x1 : S128x128.Slices ![0, 92] S128x1
  slices_S128x256_o92_0_S1x256 : S128x256.Slices ![92, 0] S1x256
  slices_S128x128_o0_93_S128x1 : S128x128.Slices ![0, 93] S128x1
  slices_S128x256_o93_0_S1x256 : S128x256.Slices ![93, 0] S1x256
  slices_S128x128_o0_94_S128x1 : S128x128.Slices ![0, 94] S128x1
  slices_S128x256_o94_0_S1x256 : S128x256.Slices ![94, 0] S1x256
  slices_S128x128_o0_95_S128x1 : S128x128.Slices ![0, 95] S128x1
  slices_S128x256_o95_0_S1x256 : S128x256.Slices ![95, 0] S1x256
  slices_S128x128_o0_96_S128x1 : S128x128.Slices ![0, 96] S128x1
  slices_S128x256_o96_0_S1x256 : S128x256.Slices ![96, 0] S1x256
  slices_S128x128_o0_97_S128x1 : S128x128.Slices ![0, 97] S128x1
  slices_S128x256_o97_0_S1x256 : S128x256.Slices ![97, 0] S1x256
  slices_S128x128_o0_98_S128x1 : S128x128.Slices ![0, 98] S128x1
  slices_S128x256_o98_0_S1x256 : S128x256.Slices ![98, 0] S1x256
  slices_S128x128_o0_99_S128x1 : S128x128.Slices ![0, 99] S128x1
  slices_S128x256_o99_0_S1x256 : S128x256.Slices ![99, 0] S1x256
  slices_S128x128_o0_100_S128x1 : S128x128.Slices ![0, 100] S128x1
  slices_S128x256_o100_0_S1x256 : S128x256.Slices ![100, 0] S1x256
  slices_S128x128_o0_101_S128x1 : S128x128.Slices ![0, 101] S128x1
  slices_S128x256_o101_0_S1x256 : S128x256.Slices ![101, 0] S1x256
  slices_S128x128_o0_102_S128x1 : S128x128.Slices ![0, 102] S128x1
  slices_S128x256_o102_0_S1x256 : S128x256.Slices ![102, 0] S1x256
  slices_S128x128_o0_103_S128x1 : S128x128.Slices ![0, 103] S128x1
  slices_S128x256_o103_0_S1x256 : S128x256.Slices ![103, 0] S1x256
  slices_S128x128_o0_104_S128x1 : S128x128.Slices ![0, 104] S128x1
  slices_S128x256_o104_0_S1x256 : S128x256.Slices ![104, 0] S1x256
  slices_S128x128_o0_105_S128x1 : S128x128.Slices ![0, 105] S128x1
  slices_S128x256_o105_0_S1x256 : S128x256.Slices ![105, 0] S1x256
  slices_S128x128_o0_106_S128x1 : S128x128.Slices ![0, 106] S128x1
  slices_S128x256_o106_0_S1x256 : S128x256.Slices ![106, 0] S1x256
  slices_S128x128_o0_107_S128x1 : S128x128.Slices ![0, 107] S128x1
  slices_S128x256_o107_0_S1x256 : S128x256.Slices ![107, 0] S1x256
  slices_S128x128_o0_108_S128x1 : S128x128.Slices ![0, 108] S128x1
  slices_S128x256_o108_0_S1x256 : S128x256.Slices ![108, 0] S1x256
  slices_S128x128_o0_109_S128x1 : S128x128.Slices ![0, 109] S128x1
  slices_S128x256_o109_0_S1x256 : S128x256.Slices ![109, 0] S1x256
  slices_S128x128_o0_110_S128x1 : S128x128.Slices ![0, 110] S128x1
  slices_S128x256_o110_0_S1x256 : S128x256.Slices ![110, 0] S1x256
  slices_S128x128_o0_111_S128x1 : S128x128.Slices ![0, 111] S128x1
  slices_S128x256_o111_0_S1x256 : S128x256.Slices ![111, 0] S1x256
  slices_S128x128_o0_112_S128x1 : S128x128.Slices ![0, 112] S128x1
  slices_S128x256_o112_0_S1x256 : S128x256.Slices ![112, 0] S1x256
  slices_S128x128_o0_113_S128x1 : S128x128.Slices ![0, 113] S128x1
  slices_S128x256_o113_0_S1x256 : S128x256.Slices ![113, 0] S1x256
  slices_S128x128_o0_114_S128x1 : S128x128.Slices ![0, 114] S128x1
  slices_S128x256_o114_0_S1x256 : S128x256.Slices ![114, 0] S1x256
  slices_S128x128_o0_115_S128x1 : S128x128.Slices ![0, 115] S128x1
  slices_S128x256_o115_0_S1x256 : S128x256.Slices ![115, 0] S1x256
  slices_S128x128_o0_116_S128x1 : S128x128.Slices ![0, 116] S128x1
  slices_S128x256_o116_0_S1x256 : S128x256.Slices ![116, 0] S1x256
  slices_S128x128_o0_117_S128x1 : S128x128.Slices ![0, 117] S128x1
  slices_S128x256_o117_0_S1x256 : S128x256.Slices ![117, 0] S1x256
  slices_S128x128_o0_118_S128x1 : S128x128.Slices ![0, 118] S128x1
  slices_S128x256_o118_0_S1x256 : S128x256.Slices ![118, 0] S1x256
  slices_S128x128_o0_119_S128x1 : S128x128.Slices ![0, 119] S128x1
  slices_S128x256_o119_0_S1x256 : S128x256.Slices ![119, 0] S1x256
  slices_S128x128_o0_120_S128x1 : S128x128.Slices ![0, 120] S128x1
  slices_S128x256_o120_0_S1x256 : S128x256.Slices ![120, 0] S1x256
  slices_S128x128_o0_121_S128x1 : S128x128.Slices ![0, 121] S128x1
  slices_S128x256_o121_0_S1x256 : S128x256.Slices ![121, 0] S1x256
  slices_S128x128_o0_122_S128x1 : S128x128.Slices ![0, 122] S128x1
  slices_S128x256_o122_0_S1x256 : S128x256.Slices ![122, 0] S1x256
  slices_S128x128_o0_123_S128x1 : S128x128.Slices ![0, 123] S128x1
  slices_S128x256_o123_0_S1x256 : S128x256.Slices ![123, 0] S1x256
  slices_S128x128_o0_124_S128x1 : S128x128.Slices ![0, 124] S128x1
  slices_S128x256_o124_0_S1x256 : S128x256.Slices ![124, 0] S1x256
  slices_S128x128_o0_125_S128x1 : S128x128.Slices ![0, 125] S128x1
  slices_S128x256_o125_0_S1x256 : S128x256.Slices ![125, 0] S1x256
  slices_S128x128_o0_126_S128x1 : S128x128.Slices ![0, 126] S128x1
  slices_S128x256_o126_0_S1x256 : S128x256.Slices ![126, 0] S1x256
  slices_S128x128_o0_127_S128x1 : S128x128.Slices ![0, 127] S128x1
  slices_S128x256_o127_0_S1x256 : S128x256.Slices ![127, 0] S1x256
  inb_S128x256_S128x256_0_0 : ∀ a, (![0, 0] : Fin 2 → Nat) a + S128x256.size a ≤ S128x256.size a
  hrank0 : 0 < grid0.rank
  k0_mult1_dvd : 128 ∣ k0_mult1.toNat
  k0_off1_inb : ∀ (r : Fin 4), ∀ a, (k0_off1 (BitVec.ofNat 32 r.val)) a + S128x128.size a ≤ S128x512.size a
  k0_off2_inb : ∀ (r : Fin 4), ∀ a, (k0_off2 (BitVec.ofNat 32 r.val)) a + S128x256.size a ≤ S512x256.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x1024.size a
  hwx0_1 : ∀ i : grid0.Coords, EltTy.bits .f32 = 32 ∨ (Rect.block (s := S512x1024) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S512x1024.size a
  hwx0_2 : ∀ i : grid0.Coords, EltTy.bits .f32 = 32 ∨ (Rect.block (s := S512x1024) S128x256.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S512x1x512 : Shape := ⟨3, ![512, 1, 512]⟩
abbrev S1x1024x512 : Shape := ⟨3, ![1, 1024, 512]⟩
abbrev S512x1024x512 : Shape := ⟨3, ![512, 1024, 512]⟩
abbrev S_ : Shape := ⟨0, ![]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1x512, .f32⟩
  | .hbm, ⟨3, _⟩ => ⟨S1x1024x512, .f32⟩
  | .hbm, ⟨4, _⟩ => ⟨S512x1024x512, .f32⟩
  | .hbm, ⟨5, _⟩ => ⟨S512x1024x512, .f32⟩
  | .hbm, ⟨6, _⟩ => ⟨S512x1024x512, .f32⟩
  | .hbm, ⟨7, _⟩ => ⟨S_, .f32⟩
  | .hbm, ⟨8, _⟩ => ⟨S512x1024, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S1024x512_S1x1024x512_1_2 : S1024x512.BroadcastsInDim S1x1024x512 (![1, 2] : Fin 2 → Fin S1x1024x512.rank)
  bcast_S512x1x512_S512x1024x512_0_1_2 : S512x1x512.BroadcastsInDim S512x1024x512 (![0, 1, 2] : Fin 3 → Fin S512x1024x512.rank)
  bcast_S1x1024x512_S512x1024x512_0_1_2 : S1x1024x512.BroadcastsInDim S512x1024x512 (![0, 1, 2] : Fin 3 → Fin S512x1024x512.rank)
  reducesTo_S512x1024x512_S512x1024_d2 : S512x1024x512.ReducesTo [2] S512x1024
  h_S_ : 0 < S_.numel

variable [Facts₀]

class Facts : Prop extends Facts₀ where

variable [Facts]
-- ==== Proof.LibRunningMin.lean ====
/-
  Minima on the extended reals, taken in pieces.

  A minimum over a finite index set is written  s.inf f  (the infimum of the empty set is +∞).  Two facts:
    • a fold of a binary operation that IS  min,  started from a value  b,  is  min b (s.inf f);  from +∞ it is
      s.inf f  itself, whatever order the fold takes the indices in;
    • a minimum over  Fin N  can be accumulated tile by tile: if  a  is the minimum over the indices below
      T·k  and  l  the minimum over tile  k  (the indices  T·k + j,  j < T),  then  min a l  is the minimum over
      the indices below  T·(k+1);  below  T·0  there is nothing (the minimum is +∞), and the indices below  N
      are all of them.
  Mathlib imports only.
-/
import Mathlib.Data.EReal.Basic
import Mathlib.Order.CompleteLattice.Finset
import Mathlib.Data.Finset.Lattice.Fold
import Mathlib.Data.Fintype.Basic

namespace LibRunningMin

/-- A fold of an operation that is `min`, from `b`: the minimum of `b` and of all the values. -/
theorem fold_eq_min_inf {ι : Type} (op : EReal → EReal → EReal) [Std.Commutative op] [Std.Associative op]
    (hop : ∀ x y, op x y = min x y) (b : EReal) (s : Finset ι) (f : ι → EReal) :
    s.fold op b f = min b (s.inf f) := by
  classical
  induction s using Finset.induction_on with
  | empty => simp
  | insert a s ha ih =>
    rw [Finset.fold_insert ha, Finset.inf_insert, ih, hop]
    exact min_left_comm _ _ _

/-- From +∞ the fold is the minimum of the values. -/
theorem fold_top_eq_inf {ι : Type} (op : EReal → EReal → EReal) [Std.Commutative op] [Std.Associative op]
    (hop : ∀ x y, op x y = min x y) (s : Finset ι) (f : ι → EReal) :
    s.fold op ⊤ f = s.inf f := by
  rw [fold_eq_min_inf op hop, min_eq_right le_top]

/-- The indices of `Fin N` below a bound. -/
def below (N b : ℕ) : Finset (Fin N) := Finset.univ.filter fun n => n.val < b

theorem mem_below {N b : ℕ} (n : Fin N) : n ∈ below N b ↔ n.val < b := by
  simp [below]

/-- Below zero there is nothing: the minimum is +∞. -/
theorem inf_below_zero {N : ℕ} (f : Fin N → EReal) : (below N 0).inf f = ⊤ := by
  have : below N 0 = ∅ := by
    ext n; simp [below]
  rw [this, Finset.inf_empty]

/-- Below `N` is everything. -/
theorem inf_below_all {N b : ℕ} (hb : N ≤ b) (f : Fin N → EReal) : (below N b).inf f = Finset.univ.inf f := by
  have : below N b = Finset.univ := by
    ext n; simp only [mem_below, Finset.mem_univ, iff_true]; exact lt_of_lt_of_le n.isLt hb
  rw [this]

/-- ONE TILE MORE: the minimum below `T·k` joined with the minimum over tile `k` is the minimum below `T·(k+1)`. -/
theorem min_inf_tile {N T : ℕ} (f : Fin N → EReal) (k : ℕ) (hk : T * (k + 1) ≤ N) :
    min ((below N (T * k)).inf f)
        (Finset.univ.inf fun j : Fin T => f ⟨T * k + j.val, by
          have := j.isLt; have : T * k + j.val < T * k + T := by omega
          have e : T * (k + 1) = T * k + T := by ring
          omega⟩)
      = (below N (T * (k + 1))).inf f := by
  have e : T * (k + 1) = T * k + T := by ring
  apply le_antisymm
  · refine Finset.le_inf fun n hn => ?_
    rw [mem_below] at hn
    by_cases h : n.val < T * k
    · exact (min_le_left _ _).trans (Finset.inf_le ((mem_below n).2 h))
    · have hj : n.val - T * k < T := by omega
      refine (min_le_right _ _).trans ((Finset.inf_le (Finset.mem_univ (⟨n.val - T * k, hj⟩ : Fin T))).trans (le_of_eq ?_))
      exact congrArg f (Fin.ext (by show T * k + (n.val - T * k) = n.val; omega))
  · refine le_min (Finset.le_inf fun n hn => Finset.inf_le ((mem_below n).2 ?_)) (Finset.le_inf fun j _ => Finset.inf_le ((mem_below _).2 ?_))
    · have := (mem_below n).1 hn; omega
    · have := j.isLt; show T * k + j.val < T * (k + 1); omega

end LibRunningMin
-- ==== Proof.LibMinPlus.lean ====
/-
  The min-plus ("tropical") product of two matrices, accumulated one contraction index at a time.

  For  a : [A,K]  and  b : [K,B]  on the extended reals the min-plus product at (p,q) is the minimum over the
  contraction index  j  of  a(p,j) + b(j,q).  A program that computes it with a running minimum takes, for
  j = 0, 1, 2, …, column  j  of  a  spread along the rows' other axis, row  j  of  b  spread along the columns' other
  axis, adds the two and takes the elementwise minimum with what it has so far.  `runMin a b n acc`  is what it
  has after the first  n  indices, started from  acc:  at (p,q) the minimum of  acc(p,q)  and of the terms
  a(p,j) + b(j,q),  j < n.  `step_zero`  and  `step_succ`  say that one more such step — a unit-width column slice
  and a unit-height row slice, each broadcast to [A,B], added, joined by an elementwise minimum — takes the first
  n  indices to the first  n + 1.  No finiteness is needed: only that  min  is associative.
  Library imports and the running-minimum facts only.
-/
import Idealize.ShloMosaic.PureOps.Ideal
import Idealize.ShloMosaic.Lib.ValueIdx
import Idealize.ShloMosaic.Lib.Pipeline.Value
import proofs.«160942_j46557445489434_2_alg».proof.Proof.LibRunningMin

noncomputable section

namespace LibMinPlus

open Idealize.ShloMosaic Idealize.ShloMosaic.ValueIdx LibRunningMin

variable {A K B : ℕ}

/-- The term the min-plus product takes the minimum of: a(p,j) + b(j,q). -/
def term (a : FVec Ideal (⟨2, ![A, K]⟩ : Shape) .f32) (b : FVec Ideal (⟨2, ![K, B]⟩ : Shape) .f32) (p : Fin A) (q : Fin B)
    (j : Fin K) : EReal :=
  a (ix2 p j) + b (ix2 j q)

/-- What a running minimum started from `acc` holds after the first `n` contraction indices. -/
def runMin (a : FVec Ideal (⟨2, ![A, K]⟩ : Shape) .f32) (b : FVec Ideal (⟨2, ![K, B]⟩ : Shape) .f32) (n : ℕ)
    (acc : FVec Ideal (⟨2, ![A, B]⟩ : Shape) .f32) : FVec Ideal (⟨2, ![A, B]⟩ : Shape) .f32 :=
  fun i => min (acc i) ((below K n).inf (term a b (i 0) (i 1)))

theorem runMin_apply (a : FVec Ideal (⟨2, ![A, K]⟩ : Shape) .f32) (b : FVec Ideal (⟨2, ![K, B]⟩ : Shape) .f32) (n : ℕ)
    (acc : FVec Ideal (⟨2, ![A, B]⟩ : Shape) .f32) (p : Fin A) (q : Fin B) :
    runMin a b n acc (ix2 p q) = min (acc (ix2 p q)) ((below K n).inf (term a b p q)) := rfl

/-- Column `c` of `a`, spread over the second axis, read at (p,q): a(p,c). -/
theorem column_spread_apply (a : FVec Ideal (⟨2, ![A, K]⟩ : Shape) .f32) (c : ℕ) (hc : c < K)
    (h1 : (⟨2, ![A, K]⟩ : Shape).Slices ![0, c] ⟨2, ![A, 1]⟩) (h2 : (⟨2, ![A, 1]⟩ : Shape).Broadcasts ⟨2, ![A, B]⟩)
    (p : Fin A) (q : Fin B) :
    broadcastTo ⟨2, ![A, B]⟩ (extractStridedSlice ⟨2, ![A, 1]⟩ ![0, c] a h1) h2 (ix2 p q) = a (ix2 p ⟨c, hc⟩) := by
  refine (broadcastTo_apply _ h2 (ix2 p q) (ix2 p (0 : Fin 1)) fun d => ?_).trans ?_
  · match d with
    | ⟨0, _⟩ =>
      show p.val = if A = 1 then 0 else p.val
      split_ifs with h
      · have := p.isLt; omega
      · rfl
    | ⟨1, _⟩ => show (0 : ℕ) = if (1 : ℕ) = 1 then 0 else q.val; rw [if_pos rfl]
  · refine extractStridedSlice_apply _ a h1 _ _ fun d => ?_
    match d with
    | ⟨0, _⟩ => show p.val = 0 + p.val; omega
    | ⟨1, _⟩ => show c = c + 0; omega

/-- Row `c` of `b`, spread over the first axis, read at (p,q): b(c,q). -/
theorem row_spread_apply (b : FVec Ideal (⟨2, ![K, B]⟩ : Shape) .f32) (c : ℕ) (hc : c < K)
    (h3 : (⟨2, ![K, B]⟩ : Shape).Slices ![c, 0] ⟨2, ![1, B]⟩) (h4 : (⟨2, ![1, B]⟩ : Shape).Broadcasts ⟨2, ![A, B]⟩)
    (p : Fin A) (q : Fin B) :
    broadcastTo ⟨2, ![A, B]⟩ (extractStridedSlice ⟨2, ![1, B]⟩ ![c, 0] b h3) h4 (ix2 p q) = b (ix2 ⟨c, hc⟩ q) := by
  refine (broadcastTo_apply _ h4 (ix2 p q) (ix2 (0 : Fin 1) q) fun d => ?_).trans ?_
  · match d with
    | ⟨0, _⟩ => show (0 : ℕ) = if (1 : ℕ) = 1 then 0 else p.val; rw [if_pos rfl]
    | ⟨1, _⟩ =>
      show q.val = if B = 1 then 0 else q.val
      split_ifs with h
      · have := q.isLt; omega
      · rfl
  · refine extractStridedSlice_apply _ b h3 _ _ fun d => ?_
    match d with
    | ⟨0, _⟩ => show c = c + 0; omega
    | ⟨1, _⟩ => show q.val = 0 + q.val; omega

/-- A unit-width column slice at offset `c` lies inside the matrix: `c` is a column. -/
theorem lt_of_column_slice {c : ℕ} (h1 : (⟨2, ![A, K]⟩ : Shape).Slices ![0, c] ⟨2, ![A, 1]⟩) : c < K := by
  obtain ⟨_, h⟩ := h1
  have e : c + 1 ≤ K := h ⟨1, Nat.one_lt_two⟩
  omega

/-- The indices below `n + 1` are those below `n` and `n` itself. -/
theorem inf_below_succ (f : Fin K → EReal) (n : ℕ) (hn : n < K) :
    (below K (n + 1)).inf f = min ((below K n).inf f) (f ⟨n, hn⟩) := by
  have e : below K (n + 1) = insert ⟨n, hn⟩ (below K n) := by
    ext j
    simp only [mem_below, Finset.mem_insert, Fin.ext_iff]
    omega
  rw [e, Finset.inf_insert, inf_comm]

/-- ONE MORE INDEX: the running minimum after `c` indices, joined with column `c` of `a` plus row `c` of `b`, is the
    running minimum after `c + 1`. -/
theorem step_succ (a : FVec Ideal (⟨2, ![A, K]⟩ : Shape) .f32) (b : FVec Ideal (⟨2, ![K, B]⟩ : Shape) .f32)
    (acc : FVec Ideal (⟨2, ![A, B]⟩ : Shape) .f32) (c : ℕ)
    (h1 : (⟨2, ![A, K]⟩ : Shape).Slices ![0, c] ⟨2, ![A, 1]⟩) (h2 : (⟨2, ![A, 1]⟩ : Shape).Broadcasts ⟨2, ![A, B]⟩)
    (h3 : (⟨2, ![K, B]⟩ : Shape).Slices ![c, 0] ⟨2, ![1, B]⟩) (h4 : (⟨2, ![1, B]⟩ : Shape).Broadcasts ⟨2, ![A, B]⟩) :
    minimumf (runMin a b c acc)
        (addf (broadcastTo ⟨2, ![A, B]⟩ (extractStridedSlice ⟨2, ![A, 1]⟩ ![0, c] a h1) h2)
          (broadcastTo ⟨2, ![A, B]⟩ (extractStridedSlice ⟨2, ![1, B]⟩ ![c, 0] b h3) h4))
      = runMin a b (c + 1) acc := by
  have hc : c < K := lt_of_column_slice h1
  funext i
  obtain ⟨p, q, rfl⟩ : ∃ (p : Fin A) (q : Fin B), i = ix2 p q := ⟨i 0, i 1, eq_ix2 i⟩
  rw [minimumf_apply, addf_apply, column_spread_apply a c hc h1 h2 p q, row_spread_apply b c hc h3 h4 p q,
    runMin_apply, runMin_apply, inf_below_succ _ c hc, min_assoc]
  rfl

/-- THE FIRST INDEX: any accumulator joined with column 0 of `a` plus row 0 of `b` is the running minimum after one
    index, started from that accumulator. -/
theorem step_zero (a : FVec Ideal (⟨2, ![A, K]⟩ : Shape) .f32) (b : FVec Ideal (⟨2, ![K, B]⟩ : Shape) .f32)
    (acc : FVec Ideal (⟨2, ![A, B]⟩ : Shape) .f32)
    (h1 : (⟨2, ![A, K]⟩ : Shape).Slices ![0, 0] ⟨2, ![A, 1]⟩) (h2 : (⟨2, ![A, 1]⟩ : Shape).Broadcasts ⟨2, ![A, B]⟩)
    (h3 : (⟨2, ![K, B]⟩ : Shape).Slices ![0, 0] ⟨2, ![1, B]⟩) (h4 : (⟨2, ![1, B]⟩ : Shape).Broadcasts ⟨2, ![A, B]⟩) :
    minimumf acc
        (addf (broadcastTo ⟨2, ![A, B]⟩ (extractStridedSlice ⟨2, ![A, 1]⟩ ![0, 0] a h1) h2)
          (broadcastTo ⟨2, ![A, B]⟩ (extractStridedSlice ⟨2, ![1, B]⟩ ![0, 0] b h3) h4))
      = runMin a b 1 acc := by
  have e : acc = runMin a b 0 acc := by
    funext i
    show acc i = min (acc i) ((below K 0).inf _)
    rw [inf_below_zero, min_eq_left le_top]
  conv_lhs => rw [e]
  exact step_succ a b acc 0 h1 h2 h3 h4

/-- After all `K` indices (or more) the running minimum is the accumulator joined with the whole minimum. -/
theorem runMin_all (a : FVec Ideal (⟨2, ![A, K]⟩ : Shape) .f32) (b : FVec Ideal (⟨2, ![K, B]⟩ : Shape) .f32) (n : ℕ) (hn : K ≤ n)
    (acc : FVec Ideal (⟨2, ![A, B]⟩ : Shape) .f32) (p : Fin A) (q : Fin B) :
    runMin a b n acc (ix2 p q) = min (acc (ix2 p q)) (Finset.univ.inf (term a b p q)) := by
  rw [runMin_apply, inf_below_all hn]

/-- ONE CHUNK MORE.  Let `X : [A,N]` and `W : [N,B]`, and let `a : [A,T]`, `b : [T,B]` be their columns / rows
    `lo … lo + T − 1`  (`lo = T·r`).  The minimum of the terms of `X`, `W` below `lo`, joined with the whole minimum of the
    terms of `a`, `b`, is the minimum of the terms of `X`, `W` below `hi = T·(r+1)`. -/
theorem join_chunk {N T : ℕ} (X : FVec Ideal (⟨2, ![A, N]⟩ : Shape) .f32) (W : FVec Ideal (⟨2, ![N, B]⟩ : Shape) .f32)
    (a : FVec Ideal (⟨2, ![A, T]⟩ : Shape) .f32) (b : FVec Ideal (⟨2, ![T, B]⟩ : Shape) .f32) (r lo hi : ℕ)
    (hlo : lo = T * r) (hhi : hi = T * (r + 1)) (hr : hi ≤ N)
    (ha : ∀ (p : Fin A) (j : Fin T) (h : lo + j.val < N), a (ix2 p j) = X (ix2 p ⟨lo + j.val, h⟩))
    (hb : ∀ (j : Fin T) (q : Fin B) (h : lo + j.val < N), b (ix2 j q) = W (ix2 ⟨lo + j.val, h⟩ q))
    (p : Fin A) (q : Fin B) :
    min ((below N lo).inf (term X W p q)) (Finset.univ.inf (term a b p q)) = (below N hi).inf (term X W p q) := by
  subst hlo hhi
  rw [← min_inf_tile (term X W p q) r hr]
  congr 1
  refine Finset.inf_congr rfl fun j _ => ?_
  unfold term
  rw [ha p j _, hb j q _]

end LibMinPlus
-- ==== Proof.MinPlusSpec.lean ====
/-
  The specification: the min-plus product of  x : [512,512]  with the rows of  w : [1024,512],
      minPlus x w (b,o) = min over j < 512 of  x(b,j) + w(o,j),
  on the extended reals; the minimum over a finite index set is written  Finset.univ.inf  (over no index it is +∞).
  Both programs compute this one function; nothing here mentions either of them.
-/
import Idealize.ShloMosaic.PureOps.Ideal
import Idealize.ShloMosaic.Lib.ValueIdx
import Mathlib.Order.CompleteLattice.Finset
import Mathlib.Data.Finset.Lattice.Fold

noncomputable section

namespace MinPlusSpec

open Idealize.ShloMosaic Idealize.ShloMosaic.ValueIdx

/-- out(b,o) = min_j ( x(b,j) + w(o,j) ). -/
def minPlus (x : FVec Ideal (⟨2, ![512, 512]⟩ : Shape) .f32) (w : FVec Ideal (⟨2, ![1024, 512]⟩ : Shape) .f32) :
    FVec Ideal (⟨2, ![512, 1024]⟩ : Shape) .f32 :=
  fun i => Finset.univ.inf fun j : Fin 512 => x (ix2 (i 0) j) + w (ix2 (i 1) j)

theorem minPlus_apply (x : FVec Ideal (⟨2, ![512, 512]⟩ : Shape) .f32) (w : FVec Ideal (⟨2, ![1024, 512]⟩ : Shape) .f32)
    (b : Fin 512) (o : Fin 1024) :
    minPlus x w (ix2 b o) = Finset.univ.inf fun j : Fin 512 => x (ix2 b j) + w (ix2 o j) := rfl

/-- The f32 word of +∞ denotes the top of the extended reals. -/
theorem ofBits_posInf : Ideal.ofBits .f32 0x7F800000#32 = (⊤ : EReal) := by
  simp [Ideal.ofBits, Ideal.ieee]

end MinPlusSpec
-- ==== Proof.BodyMinPlus.lean ====
/-
  What the kernel's body leaves in its output block.

  At a grid point the body holds a row block  x0 : [128,512]  of  x  and a column block  x1 : [512,256]  of the transposed
  weights.  It walks the 512 contraction indices in four chunks of 128: for each chunk it loads columns
  128r … 128r+127  of  x0  and rows  128r … 128r+127  of  x1,  and for each index of the chunk takes the elementwise
  minimum of what it has with (column of x0 spread over the lanes) + (row of x1 spread over the sublanes), starting
  from +∞.  Every such step extends a running minimum by one contraction index, so each chunk leaves the minimum it
  started from joined with the minimum over its 128 indices, and the four chunks together the minimum over all 512:
      block(p,q) = min over j < 512 of  x0(p,j) + x1(j,q).
-/
import proofs.«160942_j46557445489434_2_alg».proof.Proof.Gen.KernelIdeal.Frame
import proofs.«160942_j46557445489434_2_alg».proof.Proof.LibMinPlus
import proofs.«160942_j46557445489434_2_alg».proof.Proof.MinPlusSpec
import Idealize.ShloMosaic.Lib.Pipeline.Value
import Idealize.ShloMosaic.Lib.ValueIdx

set_option maxRecDepth 65536

noncomputable section

namespace Cert.KernelIdeal.BodyValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open LibMinPlus LibRunningMin

/-- The min-plus product of one row block of  x  with one column block of the transposed weights. -/
def blockMinPlus (x0 : Vec Ideal S128x512 .f32) (x1 : Vec Ideal S512x256 .f32) : Vec Ideal S128x256 .f32 :=
  fun i => Finset.univ.inf fun j : Fin 512 => x0 (ix2 (i 0) j) + x1 (ix2 j (i 1))

/-- Columns  o … o+127  of the row block, loaded as a [128,128] value, read at (p,j): the row block at (p, o+j). -/
theorem cols_apply (x0 : Vec Ideal S128x512 .f32) (o : ℕ) (inb : ∀ a, ![0, o] a + S128x128.size a ≤ S128x512.size a)
    (p : Fin 128) (j : Fin 128) (h : o + j.val < 512) :
    View.ld x0 (Rect.unit ![0, o] S128x128.size inb) (ix2 p j) = x0 (ix2 p ⟨o + j.val, h⟩) := by
  show x0 _ = x0 _
  refine congrArg x0 (funext fun a => Fin.ext ?_)
  match a with
  | ⟨0, _⟩ => show 0 + 1 * p.val = p.val; omega
  | ⟨1, _⟩ => show o + 1 * j.val = o + j.val; omega

/-- Rows  o … o+127  of the column block, loaded as a [128,256] value, read at (j,q): the column block at (o+j, q). -/
theorem rows_apply (x1 : Vec Ideal S512x256 .f32) (o : ℕ) (inb : ∀ a, ![o, 0] a + S128x256.size a ≤ S512x256.size a)
    (j : Fin 128) (q : Fin 256) (h : o + j.val < 512) :
    View.ld x1 (Rect.unit ![o, 0] S128x256.size inb) (ix2 j q) = x1 (ix2 ⟨o + j.val, h⟩ q) := by
  show x1 _ = x1 _
  refine congrArg x1 (funext fun a => Fin.ext ?_)
  match a with
  | ⟨0, _⟩ => show o + 1 * j.val = o + j.val; omega
  | ⟨1, _⟩ => show 0 + 1 * q.val = q.val; omega

/-- FOUR CHUNKS MAKE THE WHOLE MINIMUM: running minima over four consecutive chunks of 128 contraction indices, the
    first started from +∞, leave the minimum over all 512. -/
theorem four_chunks (x0 : Vec Ideal S128x512 .f32) (x1 : Vec Ideal S512x256 .f32)
    (a0 a1 a2 a3 : Vec Ideal S128x128 .f32) (b0 b1 b2 b3 : Vec Ideal S128x256 .f32)
    (ha0 : ∀ (p : Fin 128) (j : Fin 128) (h : 0 + j.val < 512), a0 (ix2 p j) = x0 (ix2 p ⟨0 + j.val, h⟩))
    (hb0 : ∀ (j : Fin 128) (q : Fin 256) (h : 0 + j.val < 512), b0 (ix2 j q) = x1 (ix2 ⟨0 + j.val, h⟩ q))
    (ha1 : ∀ (p : Fin 128) (j : Fin 128) (h : 128 + j.val < 512), a1 (ix2 p j) = x0 (ix2 p ⟨128 + j.val, h⟩))
    (hb1 : ∀ (j : Fin 128) (q : Fin 256) (h : 128 + j.val < 512), b1 (ix2 j q) = x1 (ix2 ⟨128 + j.val, h⟩ q))
    (ha2 : ∀ (p : Fin 128) (j : Fin 128) (h : 256 + j.val < 512), a2 (ix2 p j) = x0 (ix2 p ⟨256 + j.val, h⟩))
    (hb2 : ∀ (j : Fin 128) (q : Fin 256) (h : 256 + j.val < 512), b2 (ix2 j q) = x1 (ix2 ⟨256 + j.val, h⟩ q))
    (ha3 : ∀ (p : Fin 128) (j : Fin 128) (h : 384 + j.val < 512), a3 (ix2 p j) = x0 (ix2 p ⟨384 + j.val, h⟩))
    (hb3 : ∀ (j : Fin 128) (q : Fin 256) (h : 384 + j.val < 512), b3 (ix2 j q) = x1 (ix2 ⟨384 + j.val, h⟩ q)) :
    runMin a3 b3 128 (runMin a2 b2 128 (runMin a1 b1 128 (runMin a0 b0 128
        (broadcast S128x256 (FloatOps.ofBits (F := Ideal) .f32 0x7F800000#32)))))
      = blockMinPlus x0 x1 := by
  funext i
  obtain ⟨p, q, rfl⟩ : ∃ (p : Fin 128) (q : Fin 256), i = ix2 p q := ⟨i 0, i 1, eq_ix2 i⟩
  rw [runMin_all a3 b3 128 le_rfl, runMin_all a2 b2 128 le_rfl, runMin_all a1 b1 128 le_rfl,
    runMin_all a0 b0 128 le_rfl, broadcast_apply]
  have h0 : FloatOps.ofBits (F := Ideal) .f32 0x7F800000#32 = (below 512 0).inf (term x0 x1 p q) := by
    rw [inf_below_zero]; exact MinPlusSpec.ofBits_posInf
  rw [h0, join_chunk x0 x1 a0 b0 0 0 128 rfl rfl (by norm_num) ha0 hb0,
    join_chunk x0 x1 a1 b1 1 128 256 rfl rfl (by norm_num) ha1 hb1,
    join_chunk x0 x1 a2 b2 2 256 384 rfl rfl (by norm_num) ha2 hb2,
    join_chunk x0 x1 a3 b3 3 384 512 rfl rfl (by norm_num) ha3 hb3,
    inf_below_all le_rfl]
  rfl

/-- The whole-block store's rectangle starts at the origin. -/
theorem origin : (![0, 0] : Fin S128x256.rank → Nat) = fun _ => 0 :=
  funext fun a => by match a with | ⟨0, _⟩ => rfl | ⟨1, _⟩ => rfl

/-- WHAT THE BODY LEAVES: on any staging memrefs, from input blocks  x0, x1,  the output block ends at their min-plus
    product. -/
theorem out_eq (c : Dev nD) (i : grid0.Coords) (arg2 : Memref sig .tc .vmem S128x512 .f32) (harg2 : arg2.IsWhole)
    (arg3 : Memref sig .tc .vmem S512x256 .f32) (harg3 : arg3.IsWhole) (arg4 : Memref sig .tc .vmem S128x256 .f32) (harg4 : arg4.IsWhole)
    (x0 : Vec Ideal S128x512 .f32) (x1 : Vec Ideal S512x256 .f32) :
    out0_A_2 (F := Ideal) c i arg2 harg2 arg3 harg3 arg4 harg4 x0 x1 = blockMinPlus x0 x1 := by
  unfold out0_A_2
  rw [View.read_writes_eq_canon _ _ _ (cover0_A_2 c i arg2 harg2 arg3 harg3 arg4 harg4 x0 x1)]
  unfold kernelRun0_A
  dsimp only
  rw [View.canon_unit_zero origin]
  sl_unfold_run_names
  simp only [View.readAt_eq_ld, harg2.read_unread, harg3.read_unread]
  have fa0 := cols_apply x0 0 (by decide)
  have fa1 := cols_apply x0 128 (by decide)
  have fa2 := cols_apply x0 256 (by decide)
  have fa3 := cols_apply x0 384 (by decide)
  have fb0 := rows_apply x1 0 (by decide)
  have fb1 := rows_apply x1 128 (by decide)
  have fb2 := rows_apply x1 256 (by decide)
  have fb3 := rows_apply x1 384 (by decide)
  generalize View.ld x0 (Rect.unit ![0, 0] S128x128.size (by decide)) = a0 at fa0 ⊢
  generalize View.ld x0 (Rect.unit ![0, 128] S128x128.size (by decide)) = a1 at fa1 ⊢
  generalize View.ld x0 (Rect.unit ![0, 256] S128x128.size (by decide)) = a2 at fa2 ⊢
  generalize View.ld x0 (Rect.unit ![0, 384] S128x128.size (by decide)) = a3 at fa3 ⊢
  generalize View.ld x1 (Rect.unit ![0, 0] S128x256.size (by decide)) = b0 at fb0 ⊢
  generalize View.ld x1 (Rect.unit ![128, 0] S128x256.size (by decide)) = b1 at fb1 ⊢
  generalize View.ld x1 (Rect.unit ![256, 0] S128x256.size (by decide)) = b2 at fb2 ⊢
  generalize View.ld x1 (Rect.unit ![384, 0] S128x256.size (by decide)) = b3 at fb3 ⊢
  simp (config := { maxSteps := 10000000 }) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, shapeCast_self, step_zero, step_succ, Nat.reduceAdd]
  exact four_chunks x0 x1 a0 a1 a2 a3 b0 b1 b2 b3 fa0 fb0 fa1 fb1 fa2 fb2 fa3 fb3

end Cert.KernelIdeal.BodyValue
-- ==== Proof.ArrayMinPlus.lean ====
/-
  From blocks to the array.

  The grid has 4 × 4 points.  At point (r,s) the kernel holds rows  128r … 128r+127  of  x  (all 512 columns), columns
  256s … 256s+255  of the transposed weights (all 512 rows), and writes back rows  128r …,  columns  256s …  of the
  result.  The transposed weights are made by the one host operation before the region: entry (j,o) of the transpose
  is  w(o,j).  So entry (p,q) of the block written back, the minimum over  j  of  x0(p,j) + x1(j,q),  is
  min_j ( x(128r+p, j) + w(256s+q, j) ):  the block of the min-plus product under it.  The sixteen blocks cover the
  array (the point that covers entry (b,o) is (b / 128, o / 256)), so after the run the result array IS the
  min-plus product of the arguments.
-/
import proofs.«160942_j46557445489434_2_alg».proof.Proof.Gen.KernelIdeal.Value
import proofs.«160942_j46557445489434_2_alg».proof.Proof.BodyMinPlus
import proofs.«160942_j46557445489434_2_alg».proof.Proof.MinPlusSpec
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array the second window stages, as the region finds it: the transpose of the weights. -/
theorem transposed (c : Dev nD) : (V m c main_v0 : S512x1024.Idx → EReal)
    = transpose S512x1024 [1, 0] (m ((c : Thread nD τ).loc main_arg1)) transposes_S1024x512_S512x1024_1_0 := by
  dsimp only [Gen.V, Gen.hostOps0]; after_results

/-- Entry (j,o) of the transposed weights is w(o,j). -/
theorem transposed_apply (c : Dev nD) (i : S512x1024.Idx) :
    (V m c main_v0 : S512x1024.Idx → EReal) i
      = (m ((c : Thread nD τ).loc main_arg1) : S1024x512.Idx → EReal) (ix2 (i 1) (i 0)) := by
  rw [transposed]
  exact transpose_apply _ _ _ i (ix2 (i 1) (i 0)) (fun b => by match b with | ⟨0, _⟩ => rfl | ⟨1, _⟩ => rfl)

/-- The three index maps, decided over the sixteen points: the row block of  x  moves with the output's row block and
    takes all columns; the column block of the transposed weights moves with the output's column block and takes all
    rows; the output's block indices stay below 4. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every block of the result is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- WHAT POINT `t` WRITES BACK is the block of the min-plus product of the arguments under it. -/
theorem flushed_eq (c : Dev nD) (t : Fin cfg0.N) :
    (dats m 0 c).flushed 2 t = ((cfg0.win 2).blk t).view.read (Elt Ideal)
      (MinPlusSpec.minPlus (m ((c : Thread nD τ).loc main_arg0)) (m ((c : Thread nD τ).loc main_arg1))) := by
  rw [Value.flushed2_A, BodyValue.out_eq]
  obtain ⟨e00, e01, e10, e11, -, -⟩ := idx_facts t
  funext j
  show BodyValue.blockMinPlus (iblk m c 0 t) (iblk m c 1 t) j
    = MinPlusSpec.minPlus (m ((c : Thread nD τ).loc main_arg0)) (m ((c : Thread nD τ).loc main_arg1))
        (((cfg0.win 2).blk t).view.emb j)
  unfold BodyValue.blockMinPlus MinPlusSpec.minPlus
  refine Finset.inf_congr rfl fun k _ => ?_
  congr 1
  · show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 512 + 1 * k.val = k.val
      omega
  · show (V m c main_v0 : S512x1024.Idx → EReal) (((cfg0.win 1).blk t).view.emb (ix2 k (j 1))) = _
    rw [transposed_apply]
    refine congrArg _ (funext fun a => Fin.ext ?_)
    match a with
    | ⟨0, _⟩ =>
      show win0_1.index t (1 : Fin 2) * 256 + 1 * (j 1).val = win0_2.index t (1 : Fin 2) * 256 + 1 * (j 1).val
      omega
    | ⟨1, _⟩ =>
      show win0_1.index t (0 : Fin 2) * 512 + 1 * k.val = k.val
      omega

/-- An entry of the result is in point `t`'s block iff each coordinate is in the block's range on its axis. -/
theorem mem_blk (t : Fin cfg0.N) (i : S512x1024.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v1).slice (win0_2.rect t)).set ↔ _
  rw [View.set_slice_whole, Rect.mem_set_unit]
  exact Iff.rfl

/-- THE BLOCKS COVER THE ARRAY: entry (b,o) is in the block of the point with block indices (b / 128, o / 256). -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := idx_onto ⟨(i 0).val / 128, by omega⟩ ⟨(i 1).val / 256, by omega⟩
  have q0 : win0_2.index t (0 : Fin 2) = (i 0).val / 128 := congrFun ht 0
  have q1 : win0_2.index t (1 : Fin 2) = (i 1).val / 256 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 256 ≤ (i 1).val ∧ (i 1).val < win0_2.index t (1 : Fin 2) * 256 + 256
    omega

/-- THE RESULT ARRAY after the run is the min-plus product of the arguments. -/
theorem final (c : Dev nD) : (dats m 0 c).arrAt 2 cfg0.N
    = MinPlusSpec.minPlus (m ((c : Thread nD τ).loc main_arg0)) (m ((c : Thread nD τ).loc main_arg1)) :=
  (dats m 0 c).arrAt_eq_of_cover 2 _ (fun t _ => flushed_eq m c t) cover

/-- The kernel's run, read: the result array ends at the min-plus product of the arguments, the arguments unchanged. -/
theorem run : θ_run defs (onTc (τ := τ) (main (F := Ideal))) ⟨m, fun _ => 0, ρ⟩ fun r => ∀ c : Dev nD,
      r.2.mem ((c : Thread nD τ).loc main_v1)
        = MinPlusSpec.minPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.ArrayValue
-- ==== Proof.RefMinPlus.lean ====
/-
  The reference computes the specification.  Its program spreads  x  to [512,1024,512] along a new middle axis and
  w  along a new leading axis, adds them — entry (b,o,j) is  x(b,j) + w(o,j)  — and reduces the last axis by a minimum
  started from +∞.  A reduce by a commutative, associative operation over one axis is a fold over that axis's
  coordinates, a fold of  min  from +∞ is the minimum of the values, and so entry (b,o) of the result is
  min_j ( x(b,j) + w(o,j) ).
-/
import proofs.«160942_j46557445489434_2_alg».proof.Proof.Gen.ReferenceIdeal.Read
import proofs.«160942_j46557445489434_2_alg».proof.Proof.LibRunningMin
import proofs.«160942_j46557445489434_2_alg».proof.Proof.MinPlusSpec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Idealize.ShloMosaic Idealize.ShloMosaic.ValueIdx

/-- Entry (b,o) of the reduced array, with coordinate k put back on the reduced axis, is entry (b,o,k). -/
theorem lift_eq (h : S512x1024x512.Reduces [2] S512x1024) (b : Fin 512) (o : Fin 1024) (k : Fin (S512x1024x512.size 2)) :
    h.lift (ix2 b o) k = ix3 b o (⟨k.val, k.isLt⟩ : Fin 512) := by
  funext c; apply Fin.ext
  fin_cases c <;> rfl

/-- The sum the reference reduces, at (b,o,j): x(b,j) + w(o,j). -/
theorem summand_apply (x : FVec Ideal S512x512 .f32) (w : FVec Ideal S1024x512 .f32) (b : Fin 512) (o : Fin 1024) (j : Fin 512) :
    Read.val_main_v4 (F := Ideal) x w (ix3 b o j) = x (ix2 b j) + w (ix2 o j) := by
  have e0 : Read.idx_main_v0 (Read.idx_main_v2 (ix3 b o j)) = ix2 b j :=
    funext fun a => Fin.ext (by match a with | ⟨0, _⟩ => rfl | ⟨1, _⟩ => rfl)
  have e1 : Read.idx_main_v1 (Read.idx_main_v3 (ix3 b o j)) = ix2 o j :=
    funext fun a => Fin.ext (by match a with | ⟨0, _⟩ => rfl | ⟨1, _⟩ => rfl)
  rw [Read.val_main_v4_apply, Read.val_main_v2_apply, Read.val_main_v0_apply, Read.val_main_v3_apply,
    Read.val_main_v1_apply, e0, e1]
  rfl

/-- The reference's result is the min-plus product. -/
theorem reference_eq (x : FVec Ideal S512x512 .f32) (w : FVec Ideal S1024x512 .f32) :
    Read.val_main_v5 (F := Ideal) x w = MinPlusSpec.minPlus x w := by
  have hred : S512x1024x512.Reduces [2] S512x1024 := by decide
  funext i
  obtain ⟨b, o, rfl⟩ : ∃ (b : Fin 512) (o : Fin 1024), i = ix2 b o := ⟨i 0, i 1, eq_ix2 i⟩
  unfold Read.val_main_v5
  rw [Host.reduce_eq_fold_single FloatOps.minimumf _ _ reducesTo_S512x1024x512_S512x1024_d2 hred h_S_ (ix2 b o)]
  refine (LibRunningMin.fold_eq_min_inf (FloatOps.minimumf (F := Ideal) (φ := .f32)) (fun _ _ => rfl) _ Finset.univ _).trans ?_
  rw [Read.val_main_cst_apply]
  show min (Ideal.ofBits .f32 0x7F800000#32) _ = _
  rw [MinPlusSpec.ofBits_posInf, min_eq_right le_top, MinPlusSpec.minPlus_apply]
  refine Finset.inf_congr rfl fun k _ => ?_
  show Read.val_main_v4 (F := Ideal) x w (hred.lift (ix2 b o) k) = _
  rw [lift_eq hred b o k, summand_apply]
  rfl

end Cert.ReferenceIdeal.RefValue
-- ==== Proof.lean ====
/-
  The tropical (min-plus) matrix product:  out(b,o) = min_j ( x(b,j) + w(o,j) ),  x : [512,512],  w : [1024,512].

  The kernel transposes  w  on the host and then, on a 4 × 4 grid, computes each [128,256] block of the result by a
  running elementwise minimum over the 512 contraction indices, started from +∞: for each index it adds a column of its
  row block of  x  to a row of its column block of the transposed weights.  The reference spreads  x  and  w  to
  [512,1024,512], adds them and reduces the last axis by a minimum from +∞.  On the extended reals both are the one
  function  MinPlusSpec.minPlus  of the arguments: a minimum does not depend on the order or grouping in which its
  terms are joined, and joining with +∞ changes nothing.  No finiteness of the inputs is used.

  The frames are the generated ones (the reference's is its generated run with the result dropped); the idealization
  rewrote no operation, so  preserves  is trivial; the algebraic claim sets the kernel's run, read as the min-plus
  product block by block (BodyMinPlus, ArrayMinPlus), beside the reference's run, read as the same function
  (RefMinPlus).
-/
import proofs.«160942_j46557445489434_2_alg».proof.Defs
import proofs.«160942_j46557445489434_2_alg».proof.Proof.Gen.Kernel
import proofs.«160942_j46557445489434_2_alg».proof.Proof.Gen.Kernel.Skeleton
import proofs.«160942_j46557445489434_2_alg».proof.Proof.Gen.Kernel.Launch
import proofs.«160942_j46557445489434_2_alg».proof.Proof.Gen.Kernel.Points
import proofs.«160942_j46557445489434_2_alg».proof.Proof.Gen.Kernel.Frame
import proofs.«160942_j46557445489434_2_alg».proof.Proof.Gen.KernelIdeal
import proofs.«160942_j46557445489434_2_alg».proof.Proof.Gen.KernelIdeal.Skeleton
import proofs.«160942_j46557445489434_2_alg».proof.Proof.Gen.KernelIdeal.Launch
import proofs.«160942_j46557445489434_2_alg».proof.Proof.Gen.KernelIdeal.Points
import proofs.«160942_j46557445489434_2_alg».proof.Proof.Gen.KernelIdeal.Frame
import proofs.«160942_j46557445489434_2_alg».proof.Proof.Gen.ReferenceIdeal
import proofs.«160942_j46557445489434_2_alg».proof.Proof.Gen.Pre_finite_inputs
import proofs.«160942_j46557445489434_2_alg».proof.Proof.Gen.KernelIdeal.Value
import proofs.«160942_j46557445489434_2_alg».proof.Proof.Gen.ReferenceIdeal.Run
import proofs.«160942_j46557445489434_2_alg».proof.Proof.Gen.ReferenceIdeal.Read
import proofs.«160942_j46557445489434_2_alg».proof.Proof.ArrayMinPlus
import proofs.«160942_j46557445489434_2_alg».proof.Proof.RefMinPlus
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the min-plus product of the arguments. -/
theorem algebraic : Cert.algebraic_KernelIdeal_ReferenceIdeal := by
  intro m ρ m' ρ' _ hagree
  refine ⟨fun c => MinPlusSpec.minPlus (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
